-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1024 : Shape := ⟨2, ![64, 1024]⟩
abbrev S_ : Shape := ⟨0, ![]⟩

class Facts : Prop where
  bcast_S_S64x1024 : S_.BroadcastsInDim S64x1024 (![] : Fin 0 → Fin S64x1024.rank)
  reducesTo_S64x1024_S_d0_1 : S64x1024.ReducesTo [0, 1] S_
  h_S_ : 0 < S_.numel

variable [Facts]

def fn {F : FTy → Type} [FloatOps F] (main_arg0 : FVec F S64x1024 .f32) (main_arg1 : FVec F S64x1024 .f32) : IVec S_ 1 :=
  let main_v0 : FVec F S64x1024 .f32 := Host.absf main_arg0
  let main_cst : FVec F S_ .f32 := constant S_ .f32 0x7F800000#32
  let main_v1 : FVec F S64x1024 .f32 := broadcastInDim S64x1024 ![] bcast_S_S64x1024 main_cst
  let main_v2 : IVec S64x1024 1 := cmpf .olt main_v0 main_v1
  let main_c : IVec S_ 1 := constantI S_ 1 1#1
  let main_v3 : IVec S_ 1 := (fun x v => Host.reduce IntOp.andi x v reducesTo_S64x1024_S_d0_1 h_S_) main_v2 main_c
  let main_v4 : FVec F S64x1024 .f32 := Host.absf main_arg1
  let main_cst_0 : FVec F S_ .f32 := constant S_ .f32 0x7F800000#32
  let main_v5 : FVec F S64x1024 .f32 := broadcastInDim S64x1024 ![] bcast_S_S64x1024 main_cst_0
  let main_v6 : IVec S64x1024 1 := cmpf .olt main_v4 main_v5
  let main_c_1 : IVec S_ 1 := constantI S_ 1 1#1
  let main_v7 : IVec S_ 1 := (fun x v => Host.reduce IntOp.andi x v reducesTo_S64x1024_S_d0_1 h_S_) main_v6 main_c_1
  let main_v8 : IVec S_ 1 := andi main_v3 main_v7
  main_v8
-- ==== Kernel.lean ====
abbrev S64x1024 : Shape := ⟨2, ![64, 1024]⟩
abbrev S64x1x1024 : Shape := ⟨3, ![64, 1, 1024]⟩
abbrev S64x1024x1024 : Shape := ⟨3, ![64, 1024, 1024]⟩
abbrev S1x1x1024 : Shape := ⟨3, ![1, 1, 1024]⟩
abbrev S1x1024x1024 : Shape := ⟨3, ![1, 1024, 1024]⟩
abbrev S1x1024 : Shape := ⟨2, ![1, 1024]⟩
abbrev S1024x1 : Shape := ⟨2, ![1024, 1]⟩
abbrev S1024x1024 : Shape := ⟨2, ![1024, 1024]⟩

abbrev nBuf : Space → Nat
  | .hbm => 6
  | .vmem => 8
  | .smem => 0
  | _ => 0

abbrev bufTy : (tb : Table) → Fin (tcTables nBuf tb) → BufTy
  | .hbm, ⟨0, _⟩ => ⟨S64x1024, .f32⟩
  | .hbm, ⟨1, _⟩ => ⟨S64x1024, .f32⟩
  | .hbm, ⟨2, _⟩ => ⟨S64x1x1024, .f32⟩
  | .hbm, ⟨3, _⟩ => ⟨S64x1x1024, .f32⟩
  | .hbm, ⟨4, _⟩ => ⟨S64x1024x1024, .f32⟩
  | .hbm, ⟨5, _⟩ => ⟨S64x1024x1024, .f32⟩
  | .local _ .vmem, ⟨0, _⟩ => ⟨S1x1x1024, .f32⟩
  | .local _ .vmem, ⟨1, _⟩ => ⟨S1x1x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1024x1024, .f32⟩
  | .local _ .vmem, ⟨5, _⟩ => ⟨S1x1024x1024, .f32⟩
  | .local _ .vmem, ⟨6, _⟩ => ⟨S1x1024x1024, .f32⟩
  | .local _ .vmem, ⟨7, _⟩ => ⟨S1x1024x1024, .f32⟩
  | _, _ => ⟨S64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S64x1024_S64x1x1024_0_2 : S64x1024.BroadcastsInDim S64x1x1024 (![0, 2] : Fin 2 → Fin S64x1x1024.rank)
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  transposes_S1x1024_p1_0_S1024x1 : S1x1024.Transposes [1, 0] S1024x1
  broadcasts_S1024x1_S1024x1024 : S1024x1.Broadcasts S1024x1024
  broadcasts_S1x1024_S1024x1024 : S1x1024.Broadcasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x1024.size a ≤ S64x1x1024.size a
  hwx0_0 : ∀ i : grid0.Coords, EltTy.bits .f32 = 32 ∨ (Rect.block (s := S64x1x1024) S1x1x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1024.size a ≤ S64x1x1024.size a
  hwx0_1 : ∀ i : grid0.Coords, EltTy.bits .f32 = 32 ∨ (Rect.block (s := S64x1x1024) S1x1x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1024.size a ≤ S64x1024x1024.size a
  hwx0_2 : ∀ i : grid0.Coords, EltTy.bits .f32 = 32 ∨ (Rect.block (s := S64x1024x1024) S1x1024x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1024.size a ≤ S64x1024x1024.size a
  hwx0_3 : ∀ i : grid0.Coords, EltTy.bits .f32 = 32 ∨ (Rect.block (s := S64x1024x1024) S1x1024x1024.size (cc0_transform_3 i) (hinb0_3 i)).WholeWords (EltTy.packing .f32)

variable [Facts₀]

abbrev win0_0 : Pipeline.Window sig grid0 :=
  Pipeline.Window.ofSpec (Memref.whole main_v0) S1x1x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x1024x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x1024 : Shape := ⟨2, ![64, 1024]⟩
abbrev S64x1024x1 : Shape := ⟨3, ![64, 1024, 1]⟩
abbrev S64x1x1024 : Shape := ⟨3, ![64, 1, 1024]⟩
abbrev S64x1024x1024 : Shape := ⟨3, ![64, 1024, 1024]⟩

abbrev nBuf : Space → Nat
  | .hbm => 21
  | .vmem => 0
  | .smem => 0
  | _ => 0

abbrev bufTy : (tb : Table) → Fin (tcTables nBuf tb) → BufTy
  | .hbm, ⟨0, _⟩ => ⟨S64x1024, .f32⟩
  | .hbm, ⟨1, _⟩ => ⟨S64x1024, .f32⟩
  | .hbm, ⟨2, _⟩ => ⟨S64x1024x1, .f32⟩
  | .hbm, ⟨3, _⟩ => ⟨S64x1x1024, .f32⟩
  | .hbm, ⟨4, _⟩ => ⟨S64x1024x1, .f32⟩
  | .hbm, ⟨5, _⟩ => ⟨S64x1x1024, .f32⟩
  | .hbm, ⟨6, _⟩ => ⟨S64x1024x1024, .f32⟩
  | .hbm, ⟨7, _⟩ => ⟨S64x1024x1024, .f32⟩
  | .hbm, ⟨8, _⟩ => ⟨S64x1024x1024, .f32⟩
  | .hbm, ⟨9, _⟩ => ⟨S64x1024x1024, .f32⟩
  | .hbm, ⟨10, _⟩ => ⟨S64x1024x1024, .f32⟩
  | .hbm, ⟨11, _⟩ => ⟨S64x1024x1024, .f32⟩
  | .hbm, ⟨12, _⟩ => ⟨S64x1024x1024, .f32⟩
  | .hbm, ⟨13, _⟩ => ⟨S64x1024x1, .f32⟩
  | .hbm, ⟨14, _⟩ => ⟨S64x1024x1024, .f32⟩
  | .hbm, ⟨15, _⟩ => ⟨S64x1024x1024, .f32⟩
  | .hbm, ⟨16, _⟩ => ⟨S64x1024x1024, .f32⟩
  | .hbm, ⟨17, _⟩ => ⟨S64x1024x1024, .f32⟩
  | .hbm, ⟨18, _⟩ => ⟨S64x1024x1024, .f32⟩
  | .hbm, ⟨19, _⟩ => ⟨S64x1024x1024, .f32⟩
  | .hbm, ⟨20, _⟩ => ⟨S64x1024x1024, .f32⟩
  | _, _ => ⟨S64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩

abbrev nD : Nat := 1
abbrev τ : Topo := Topo.v7x

variable {F : FTy → Type} [FloatOps F]

class Facts₀ : Prop where
  bcast_S64x1024_S64x1024x1_0_1 : S64x1024.BroadcastsInDim S64x1024x1 (![0, 1] : Fin 2 → Fin S64x1024x1.rank)
  bcast_S64x1024_S64x1x1024_0_2 : S64x1024.BroadcastsInDim S64x1x1024 (![0, 2] : Fin 2 → Fin S64x1x1024.rank)
  bcast_S64x1024x1_S64x1024x1024_0_1_2 : S64x1024x1.BroadcastsInDim S64x1024x1024 (![0, 1, 2] : Fin 3 → Fin S64x1024x1024.rank)
  bcast_S64x1x1024_S64x1024x1024_0_1_2 : S64x1x1024.BroadcastsInDim S64x1024x1024 (![0, 1, 2] : Fin 3 → Fin S64x1024x1024.rank)

variable [Facts₀]

class Facts : Prop extends Facts₀ where

variable [Facts]
-- ==== Proof.KernelRows.lean ====
/-
  Grid point `t` of the kernel handles batch `t`.

  The kernel's grid has 64 points, one per batch.  At point `t` every window's block index is (t, 0, 0): the two input
  windows hold row `t` of their [64, 1, 1024] arrays (1024 numbers), the two output windows the whole 1024 × 1024 slab
  `t` of the [64, 1024, 1024] results.  The input arrays are the arguments with a unit middle axis put in by the host,
  (b, 0, q) ↦ x[b, q].  So element (0, 0, q) of an input block at point `t` is the argument at (t, q)
  (`real_row`, `imag_row`), and element (0, p, q) of an output block sits at (t, p, q) of its array (`slab_emb2`,
  `slab_emb3`).
-/
import proofs.«175084_j2860448219733_2_alg».proof.Proof.Gen.KernelIdeal.Value
import Idealize.ShloMosaic.Lib.Pipeline.Value
import Idealize.ShloMosaic.Lib.StableHlo.Run

noncomputable section

namespace Cert.KernelIdeal.Rows

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

/-- The zero offsets of a whole-block access, however spelt. -/
theorem hz : (![0, 0, 0] : Fin 3 → Nat) = fun _ => 0 := funext fun a => by fin_cases a <;> rfl

/-- Every window's block index at grid point `t` is (t, 0, 0): decided over the 64 points. -/
theorem batch_of_point : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0) :=
  (by decide +kernel : ∀ t : Fin grid0.N, _)

/-! ## What the host stages: the arguments with a unit middle axis -/

/-- The first input window's array is the real parts with a unit middle axis. -/
theorem staged_real (c : Dev nD) :
    (V m c main_v0 : S64x1x1024.Idx → Elt F .f32)
      = broadcastInDim S64x1x1024 ![0, 2] bcast_S64x1024_S64x1x1024_0_2 (m ((c : Thread nD τ).loc main_arg0)) := by
  dsimp only [Gen.V, Gen.hostOps0]; after_results

/-- The second input window's array is the imaginary parts with a unit middle axis. -/
theorem staged_imag (c : Dev nD) :
    (V m c main_v1 : S64x1x1024.Idx → Elt F .f32)
      = broadcastInDim S64x1x1024 ![0, 2] bcast_S64x1024_S64x1x1024_0_2 (m ((c : Thread nD τ).loc main_arg1)) := by
  dsimp only [Gen.V, Gen.hostOps0]; after_results

/-- Entry (b, 0, q) of the staged real parts is the argument at (b, q). -/
theorem staged_real_apply (c : Dev nD) (x : S64x1x1024.Idx) (k : S64x1024.Idx)
    (h0 : (k 0).val = (x 0).val) (h1 : (k 1).val = (x 2).val) :
    (V m c main_v0 : S64x1x1024.Idx → Elt F .f32) x = (m ((c : Thread nD τ).loc main_arg0) : S64x1024.Idx → Elt F .f32) k := by
  rw [staged_real]
  exact broadcastInDim_apply _ bcast_S64x1024_S64x1x1024_0_2 _ x k (fun a => match a with
    | ⟨0, _⟩ => by show (k 0).val = if (64 : Nat) = 1 then 0 else (x 0).val; rw [if_neg (by decide)]; exact h0
    | ⟨1, _⟩ => by show (k 1).val = if (1024 : Nat) = 1 then 0 else (x 2).val; rw [if_neg (by decide)]; exact h1)

/-- Entry (b, 0, q) of the staged imaginary parts is the argument at (b, q). -/
theorem staged_imag_apply (c : Dev nD) (x : S64x1x1024.Idx) (k : S64x1024.Idx)
    (h0 : (k 0).val = (x 0).val) (h1 : (k 1).val = (x 2).val) :
    (V m c main_v1 : S64x1x1024.Idx → Elt F .f32) x = (m ((c : Thread nD τ).loc main_arg1) : S64x1024.Idx → Elt F .f32) k := by
  rw [staged_imag]
  exact broadcastInDim_apply _ bcast_S64x1024_S64x1x1024_0_2 _ x k (fun a => match a with
    | ⟨0, _⟩ => by show (k 0).val = if (64 : Nat) = 1 then 0 else (x 0).val; rw [if_neg (by decide)]; exact h0
    | ⟨1, _⟩ => by show (k 1).val = if (1024 : Nat) = 1 then 0 else (x 2).val; rw [if_neg (by decide)]; exact h1)

/-! ## The input blocks are rows of the arguments -/

/-- Element (0, 0, q) of the first input block at point `t` is the real part at (t, q). -/
theorem real_row (c : Dev nD) (t : Fin cfg0.N) (x : S1x1x1024.Idx) (k : S64x1024.Idx)
    (hk0 : (k 0).val = t.val) (hk1 : (k 1).val = (x 2).val) :
    (iblk m c 0 t : Vec F S1x1x1024 .f32) x = (m ((c : Thread nD τ).loc main_arg0) : S64x1024.Idx → Elt F .f32) k := by
  obtain ⟨⟨e0, e1, e2⟩, -⟩ := batch_of_point t
  have hx0 : (x 0).val < 1 := (x 0).isLt
  unfold iblk
  rw [View.read_apply]
  show (V m c main_v0 : S64x1x1024.Idx → Elt F .f32) (((cfg0.win 0).blk t).view.emb x) = _
  refine staged_real_apply m c _ k ?_ ?_
  · show (k 0).val = win0_0.index t (0 : Fin 3) * 1 + 1 * (x 0).val
    rw [e0, hk0]; omega
  · show (k 1).val = win0_0.index t (2 : Fin 3) * 1024 + 1 * (x 2).val
    rw [e2, hk1]; omega

/-- Element (0, 0, q) of the second input block at point `t` is the imaginary part at (t, q). -/
theorem imag_row (c : Dev nD) (t : Fin cfg0.N) (x : S1x1x1024.Idx) (k : S64x1024.Idx)
    (hk0 : (k 0).val = t.val) (hk1 : (k 1).val = (x 2).val) :
    (iblk m c 1 t : Vec F S1x1x1024 .f32) x = (m ((c : Thread nD τ).loc main_arg1) : S64x1024.Idx → Elt F .f32) k := by
  obtain ⟨-, ⟨e0, e1, e2⟩, -⟩ := batch_of_point t
  have hx0 : (x 0).val < 1 := (x 0).isLt
  unfold iblk
  rw [View.read_apply]
  show (V m c main_v1 : S64x1x1024.Idx → Elt F .f32) (((cfg0.win 1).blk t).view.emb x) = _
  refine staged_imag_apply m c _ k ?_ ?_
  · show (k 0).val = win0_1.index t (0 : Fin 3) * 1 + 1 * (x 0).val
    rw [e0, hk0]; omega
  · show (k 1).val = win0_1.index t (2 : Fin 3) * 1024 + 1 * (x 2).val
    rw [e2, hk1]; omega

/-! ## The output blocks are slabs of the results -/

/-- Element (0, p, q) of the first output block at point `t` sits at (t, p, q) of its array. -/
theorem slab_emb2 (t : Fin cfg0.N) (y : S1x1024x1024.Idx) :
    ((((cfg0.win 2).blk t).view.emb y) 0).val = t.val
    ∧ ((((cfg0.win 2).blk t).view.emb y) 1).val = (y 1).val
    ∧ ((((cfg0.win 2).blk t).view.emb y) 2).val = (y 2).val := by
  obtain ⟨-, -, ⟨e0, e1, e2⟩, -⟩ := batch_of_point t
  have hy0 : (y 0).val < 1 := (y 0).isLt
  refine ⟨?_, ?_, ?_⟩
  · show win0_2.index t (0 : Fin 3) * 1 + 1 * (y 0).val = t.val
    rw [e0]; omega
  · show win0_2.index t (1 : Fin 3) * 1024 + 1 * (y 1).val = (y 1).val
    rw [e1]; omega
  · show win0_2.index t (2 : Fin 3) * 1024 + 1 * (y 2).val = (y 2).val
    rw [e2]; omega

/-- Element (0, p, q) of the second output block at point `t` sits at (t, p, q) of its array. -/
theorem slab_emb3 (t : Fin cfg0.N) (y : S1x1024x1024.Idx) :
    ((((cfg0.win 3).blk t).view.emb y) 0).val = t.val
    ∧ ((((cfg0.win 3).blk t).view.emb y) 1).val = (y 1).val
    ∧ ((((cfg0.win 3).blk t).view.emb y) 2).val = (y 2).val := by
  obtain ⟨-, -, -, ⟨e0, e1, e2⟩⟩ := batch_of_point t
  have hy0 : (y 0).val < 1 := (y 0).isLt
  refine ⟨?_, ?_, ?_⟩
  · show win0_3.index t (0 : Fin 3) * 1 + 1 * (y 0).val = t.val
    rw [e0]; omega
  · show win0_3.index t (1 : Fin 3) * 1024 + 1 * (y 1).val = (y 1).val
    rw [e1]; omega
  · show win0_3.index t (2 : Fin 3) * 1024 + 1 * (y 2).val = (y 2).val
    rw [e2]; omega

end Cert.KernelIdeal.Rows

end
-- ==== Proof.OuterSpec.lean ====
/-
  The two halves of a batched complex outer product.

  A batch of 64 complex vectors of length 1024 is given by its real parts `r` and its imaginary parts `s`, each a
  [64, 1024] array.  For one vector ψ = r + i·s the matrix ψ ψ^H has, at row `p` and column `q`, the entry
  (r_p + i·s_p)(r_q − i·s_q), whose real part is  r_p·r_q + s_p·s_q  and whose imaginary part is  s_p·r_q − r_p·s_q.
  `re` and `im` are these two [64, 1024, 1024] arrays, index by index: the entry at (b, p, q) reads the two
  arguments at (b, p) — its row factor — and at (b, q) — its column factor.

  The imaginary part is also met in the arrangement  (−r_p)·s_q + s_p·r_q.  On the extended reals a sign moves out of
  a product whatever the factors are (±∞ included) and addition commutes, so the two arrangements are one value with no
  finiteness assumed: `neg_mul_add_eq_sub`, `im_of_neg`.
-/
import Idealize.ShloMosaic.PureOps.Ideal
import Idealize.ShloMosaic.Lib.ValueIdx

noncomputable section

namespace Cert.OuterProduct

open Idealize.ShloMosaic

variable {F : FTy → Type} [FloatOps F]

/-- The ROW factor's place: the result's index (b, p, q) reads an argument at (b, p). -/
abbrev rowOf (j : (⟨3, ![64, 1024, 1024]⟩ : Shape).Idx) : (⟨2, ![64, 1024]⟩ : Shape).Idx := fun a => match a with
  | ⟨0, _⟩ => ⟨(j 0).val, (j 0).isLt⟩
  | ⟨1, _⟩ => ⟨(j 1).val, (j 1).isLt⟩

/-- The COLUMN factor's place: the result's index (b, p, q) reads an argument at (b, q). -/
abbrev colOf (j : (⟨3, ![64, 1024, 1024]⟩ : Shape).Idx) : (⟨2, ![64, 1024]⟩ : Shape).Idx := fun a => match a with
  | ⟨0, _⟩ => ⟨(j 0).val, (j 0).isLt⟩
  | ⟨1, _⟩ => ⟨(j 2).val, (j 2).isLt⟩

/-- The real part of ψ ψ^H, batch by batch: r_p·r_q + s_p·s_q. -/
def re (r s : (⟨2, ![64, 1024]⟩ : Shape).Idx → Elt F .f32) : (⟨3, ![64, 1024, 1024]⟩ : Shape).Idx → Elt F .f32 :=
  fun j => FloatOps.addf (FloatOps.mulf (r (rowOf j)) (r (colOf j))) (FloatOps.mulf (s (rowOf j)) (s (colOf j)))

/-- The imaginary part of ψ ψ^H, batch by batch: s_p·r_q − r_p·s_q. -/
def im (r s : (⟨2, ![64, 1024]⟩ : Shape).Idx → Elt F .f32) : (⟨3, ![64, 1024, 1024]⟩ : Shape).Idx → Elt F .f32 :=
  fun j => FloatOps.subf (FloatOps.mulf (s (rowOf j)) (r (colOf j))) (FloatOps.mulf (r (rowOf j)) (s (colOf j)))

/-- On the extended reals, (−c)·d + a = a − c·d: the sign leaves the product (true at ±∞ and at 0·∞ as well, both
    sides being the same extended real), and the sum is read in the other order. -/
theorem neg_mul_add_eq_sub (a c d : EReal) : -c * d + a = a - c * d := by
  rw [EReal.neg_mul, add_comm, sub_eq_add_neg]

/-- The imaginary part written as a sum whose first product carries the sign on its row factor,
    (−r_p)·s_q + s_p·r_q, is `im` on the extended reals. -/
theorem im_of_neg (r s : (⟨2, ![64, 1024]⟩ : Shape).Idx → Elt Ideal .f32) (j : (⟨3, ![64, 1024, 1024]⟩ : Shape).Idx) :
    FloatOps.addf (F := Ideal) (φ := .f32)
        (FloatOps.mulf (F := Ideal) (φ := .f32) (FloatOps.hostNegf (F := Ideal) (φ := .f32) (r (rowOf j))) (s (colOf j)))
        (FloatOps.mulf (F := Ideal) (φ := .f32) (s (rowOf j)) (r (colOf j)))
      = im (F := Ideal) r s j := by
  show -(r (rowOf j)) * s (colOf j) + s (rowOf j) * r (colOf j) = s (rowOf j) * r (colOf j) - r (rowOf j) * s (colOf j)
  exact neg_mul_add_eq_sub _ _ _

end Cert.OuterProduct

end
-- ==== Proof.KernelReal.lean ====
/-
  The kernel's first result is the real part of the outer product.

  At grid point `t` the kernel loads row `t` of the real parts and row `t` of the imaginary parts, turns each row into
  a column as well (a transpose of a 1 × 1024 row), broadcasts rows and columns to 1024 × 1024 and stores
  column(r)·row(r) + column(s)·row(s)  as the whole slab `t` of its first result.  Read at (0, p, q) of the block this is the
  real part of the outer product at (t, p, q) (`block_real`, over any two rows; `writes_real` at the point's own
  rows).  The 64 slabs are written at the 64 points and fill the array (`slabs_fill_first`), so after the run the array is the
  real part everywhere (`first_is_real`).
-/
import proofs.«175084_j2860448219733_2_alg».proof.Proof.KernelRows
import proofs.«175084_j2860448219733_2_alg».proof.Proof.OuterSpec

noncomputable section

namespace Cert.KernelIdeal.RealPart

open Cert.KernelIdeal Cert.KernelIdeal.Gen Cert.KernelIdeal.Value Cert.KernelIdeal.Rows Cert.OuterProduct
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

/-- The block the body leaves from ANY two loaded rows `X0`, `X1`, at (0, p, q): when the rows are rows of `r` and `s`
    at the batch of `j`, and `j`'s row and column are `p` and `q`, it is the real part at `j`. -/
theorem block_real (X0 X1 : Vec F S1x1x1024 .f32) (r s : S64x1024.Idx → Elt F .f32)
    (y : S1x1024x1024.Idx) (j : S64x1024x1024.Idx)
    (h0 : X0 (ix2_0 y) = r (rowOf j)) (h1 : X0 (ix2_1 y) = r (colOf j))
    (h2 : X1 (ix2_2 y) = s (rowOf j)) (h3 : X1 (ix2_3 y) = s (colOf j)) :
    out0_2 X0 X1 y = re r s j := by
  unfold out0_2
  refine (canon2_eq (View.ld X0 r0_0) (View.ld X1 r0_0) y).trans ?_
  rw [View.ld_unit_zero (S := S1x1x1024) hz, View.ld_unit_zero (S := S1x1x1024) hz]
  show FloatOps.addf (FloatOps.mulf (X0 (ix2_0 y)) (X0 (ix2_1 y))) (FloatOps.mulf (X1 (ix2_2 y)) (X1 (ix2_3 y))) = _
  rw [h0, h1, h2, h3]
  rfl

/-- What point `t` writes back is slab `t` of the real part of the arguments' outer product. -/
theorem writes_real (c : Dev nD) (t : Fin cfg0.N) :
    (dats m 0 c).flushed 2 t = ((cfg0.win 2).blk t).view.read (Elt F)
      (re (m ((c : Thread nD τ).loc main_arg0)) (m ((c : Thread nD τ).loc main_arg1))) := by
  rw [flushed2]
  funext y
  obtain ⟨j0, j1, j2⟩ := slab_emb2 t y
  show out0_2 (iblk m c 0 t) (iblk m c 1 t) y = re _ _ (((cfg0.win 2).blk t).view.emb y)
  exact block_real (iblk m c 0 t) (iblk m c 1 t) _ _ y _
    (real_row m c t (ix2_0 y) (rowOf _) j0 j1)
    (real_row m c t (ix2_1 y) (colOf _) j0 j2)
    (imag_row m c t (ix2_2 y) (rowOf _) j0 j1)
    (imag_row m c t (ix2_3 y) (colOf _) j0 j2)

/-- An index of the array is in point `t`'s block iff each coordinate is in the block's range on its axis. -/
theorem mem_slab_first (t : Fin cfg0.N) (i : S64x1024x1024.Idx) :
    i ∈ ((cfg0.win 2).blk t).view.set ↔ ∀ a : Fin 3, win0_2.index t a * S1x1024x1024.size a ≤ (i a).val
      ∧ (i a).val < win0_2.index t a * S1x1024x1024.size a + S1x1024x1024.size a := by
  show i ∈ ((View.whole main_v2_0).slice (win0_2.rect t)).set ↔ _
  rw [View.set_slice_whole, Rect.mem_set_unit]
  exact Iff.rfl

/-- Every index (b, p, q) of the array is in the slab that point `b` writes back. -/
theorem slabs_fill_first (i : S64x1024x1024.Idx) :
    ∃ t : Fin cfg0.N, (cfg0.win 2).flush t = true ∧ i ∈ ((cfg0.win 2).blk t).view.set := by
  have hi0 : (i 0).val < 64 := (i 0).isLt
  have hi1 : (i 1).val < 1024 := (i 1).isLt
  have hi2 : (i 2).val < 1024 := (i 2).isLt
  have hN : grid0.N = 64 := N_0
  obtain ⟨t, hval⟩ : ∃ t : Fin cfg0.N, t.val = (i 0).val :=
    ⟨⟨(i 0).val, by show (i 0).val < grid0.N; rw [hN]; exact hi0⟩, rfl⟩
  obtain ⟨e0, e1, e2⟩ := (batch_of_point t).2.2.1
  refine ⟨t, flush0_2 t, ?_⟩
  rw [mem_slab_first]
  intro a
  match a with
  | ⟨0, _⟩ =>
    show win0_2.index t (0 : Fin 3) * 1 ≤ (i 0).val ∧ (i 0).val < win0_2.index t (0 : Fin 3) * 1 + 1
    omega
  | ⟨1, _⟩ =>
    show win0_2.index t (1 : Fin 3) * 1024 ≤ (i 1).val ∧ (i 1).val < win0_2.index t (1 : Fin 3) * 1024 + 1024
    omega
  | ⟨2, _⟩ =>
    show win0_2.index t (2 : Fin 3) * 1024 ≤ (i 2).val ∧ (i 2).val < win0_2.index t (2 : Fin 3) * 1024 + 1024
    omega

/-- After the run the first result array is the real part of the arguments' outer product. -/
theorem first_is_real (c : Dev nD) :
    (dats m 0 c).arrAt 2 cfg0.N
      = re (m ((c : Thread nD τ).loc main_arg0)) (m ((c : Thread nD τ).loc main_arg1)) :=
  (dats m 0 c).arrAt_eq_of_cover 2 _ (fun t _ => writes_real m c t) (fun i => slabs_fill_first i)

end Cert.KernelIdeal.RealPart

end
-- ==== Proof.KernelImag.lean ====
/-
  The kernel's second result is the imaginary part of the outer product.

  At grid point `t` the kernel loads row `t` of the real parts and row `t` of the imaginary parts, turns each row into
  a column as well (a transpose of a 1 × 1024 row), broadcasts rows and columns to 1024 × 1024 and stores
  column(s)·row(r) − column(r)·row(s)  as the whole slab `t` of its second result.  Read at (0, p, q) of the block this is the
  imaginary part of the outer product at (t, p, q) (`block_imag`, over any two rows; `writes_imag` at the point's own
  rows).  The 64 slabs are written at the 64 points and fill the array (`slabs_fill_second`), so after the run the array is the
  imaginary part everywhere (`second_is_imag`).
-/
import proofs.«175084_j2860448219733_2_alg».proof.Proof.KernelRows
import proofs.«175084_j2860448219733_2_alg».proof.Proof.OuterSpec

noncomputable section

namespace Cert.KernelIdeal.ImagPart

open Cert.KernelIdeal Cert.KernelIdeal.Gen Cert.KernelIdeal.Value Cert.KernelIdeal.Rows Cert.OuterProduct
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

/-- The block the body leaves from ANY two loaded rows `X0`, `X1`, at (0, p, q): when the rows are rows of `r` and `s`
    at the batch of `j`, and `j`'s row and column are `p` and `q`, it is the imaginary part at `j`. -/
theorem block_imag (X0 X1 : Vec F S1x1x1024 .f32) (r s : S64x1024.Idx → Elt F .f32)
    (y : S1x1024x1024.Idx) (j : S64x1024x1024.Idx)
    (h0 : X1 (ix3_0 y) = s (rowOf j)) (h1 : X0 (ix3_1 y) = r (colOf j))
    (h2 : X0 (ix3_2 y) = r (rowOf j)) (h3 : X1 (ix3_3 y) = s (colOf j)) :
    out0_3 X0 X1 y = im r s j := by
  unfold out0_3
  refine (canon3_eq (View.ld X1 r0_0) (View.ld X0 r0_0) y).trans ?_
  rw [View.ld_unit_zero (S := S1x1x1024) hz, View.ld_unit_zero (S := S1x1x1024) hz]
  show FloatOps.subf (FloatOps.mulf (X1 (ix3_0 y)) (X0 (ix3_1 y))) (FloatOps.mulf (X0 (ix3_2 y)) (X1 (ix3_3 y))) = _
  rw [h0, h1, h2, h3]
  rfl

/-- What point `t` writes back is slab `t` of the imaginary part of the arguments' outer product. -/
theorem writes_imag (c : Dev nD) (t : Fin cfg0.N) :
    (dats m 0 c).flushed 3 t = ((cfg0.win 3).blk t).view.read (Elt F)
      (im (m ((c : Thread nD τ).loc main_arg0)) (m ((c : Thread nD τ).loc main_arg1))) := by
  rw [flushed3]
  funext y
  obtain ⟨j0, j1, j2⟩ := slab_emb3 t y
  show out0_3 (iblk m c 0 t) (iblk m c 1 t) y = im _ _ (((cfg0.win 3).blk t).view.emb y)
  exact block_imag (iblk m c 0 t) (iblk m c 1 t) _ _ y _
    (imag_row m c t (ix3_0 y) (rowOf _) j0 j1)
    (real_row m c t (ix3_1 y) (colOf _) j0 j2)
    (real_row m c t (ix3_2 y) (rowOf _) j0 j1)
    (imag_row m c t (ix3_3 y) (colOf _) j0 j2)

/-- An index of the array is in point `t`'s block iff each coordinate is in the block's range on its axis. -/
theorem mem_slab_second (t : Fin cfg0.N) (i : S64x1024x1024.Idx) :
    i ∈ ((cfg0.win 3).blk t).view.set ↔ ∀ a : Fin 3, win0_3.index t a * S1x1024x1024.size a ≤ (i a).val
      ∧ (i a).val < win0_3.index t a * S1x1024x1024.size a + S1x1024x1024.size a := by
  show i ∈ ((View.whole main_v2_1).slice (win0_3.rect t)).set ↔ _
  rw [View.set_slice_whole, Rect.mem_set_unit]
  exact Iff.rfl

/-- Every index (b, p, q) of the array is in the slab that point `b` writes back. -/
theorem slabs_fill_second (i : S64x1024x1024.Idx) :
    ∃ t : Fin cfg0.N, (cfg0.win 3).flush t = true ∧ i ∈ ((cfg0.win 3).blk t).view.set := by
  have hi0 : (i 0).val < 64 := (i 0).isLt
  have hi1 : (i 1).val < 1024 := (i 1).isLt
  have hi2 : (i 2).val < 1024 := (i 2).isLt
  have hN : grid0.N = 64 := N_0
  obtain ⟨t, hval⟩ : ∃ t : Fin cfg0.N, t.val = (i 0).val :=
    ⟨⟨(i 0).val, by show (i 0).val < grid0.N; rw [hN]; exact hi0⟩, rfl⟩
  obtain ⟨e0, e1, e2⟩ := (batch_of_point t).2.2.2
  refine ⟨t, flush0_3 t, ?_⟩
  rw [mem_slab_second]
  intro a
  match a with
  | ⟨0, _⟩ =>
    show win0_3.index t (0 : Fin 3) * 1 ≤ (i 0).val ∧ (i 0).val < win0_3.index t (0 : Fin 3) * 1 + 1
    omega
  | ⟨1, _⟩ =>
    show win0_3.index t (1 : Fin 3) * 1024 ≤ (i 1).val ∧ (i 1).val < win0_3.index t (1 : Fin 3) * 1024 + 1024
    omega
  | ⟨2, _⟩ =>
    show win0_3.index t (2 : Fin 3) * 1024 ≤ (i 2).val ∧ (i 2).val < win0_3.index t (2 : Fin 3) * 1024 + 1024
    omega

/-- After the run the second result array is the imaginary part of the arguments' outer product. -/
theorem second_is_imag (c : Dev nD) :
    (dats m 0 c).arrAt 3 cfg0.N
      = im (m ((c : Thread nD τ).loc main_arg0)) (m ((c : Thread nD τ).loc main_arg1)) :=
  (dats m 0 c).arrAt_eq_of_cover 3 _ (fun t _ => writes_imag m c t) (fun i => slabs_fill_second i)

end Cert.KernelIdeal.ImagPart

end
-- ==== Proof.KernelOuter.lean ====
/-
  The kernel's run: every weakly fair execution terminates with the first result array at the real part and the second at
  the imaginary part of the arguments' batched outer product, the arguments unchanged.  The two arrays are read off the
  generated run block by block (each point writes one slab of each; the slabs fill the arrays).
-/
import proofs.«175084_j2860448219733_2_alg».proof.Proof.KernelReal
import proofs.«175084_j2860448219733_2_alg».proof.Proof.KernelImag

noncomputable section

namespace Cert.KernelIdeal.Outer

open Cert.KernelIdeal Cert.KernelIdeal.Gen Cert.OuterProduct
open Idealize.ShloMosaic Idealize.ShloMosaic.TcCoe Idealize.SL.Sem

variable {F : FTy → Type} [FloatOps F]
variable (m : (ℓ : Loc nD τ sig) → Buf (Elt F) ℓ) (ρ : Dev nD → PrngReg)

/-- The run, read: both result arrays as functions of the argument arrays, index by index. -/
theorem run : θ_run defs (onTc (τ := τ) (main (F := F))) ⟨m, fun _ => 0, ρ⟩ fun r => ∀ c : Dev nD,
      r.2.mem ((c : Thread nD τ).loc main_v2_0)
        = re (m ((c : Thread nD τ).loc main_arg0)) (m ((c : Thread nD τ).loc main_arg1))
      ∧ r.2.mem ((c : Thread nD τ).loc main_v2_1)
        = im (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (Cert.KernelIdeal.RealPart.first_is_real m c),
      (h c).2.1.trans (Cert.KernelIdeal.ImagPart.second_is_imag m c),
      (h c).2.2⟩)
    (Cert.KernelIdeal.Value.run_blocks m ρ)

end Cert.KernelIdeal.Outer

end
-- ==== Proof.RefOuter.lean ====
/-
  The reference computes the two halves of the outer product.

  Its first result is  r_col·r_row + s_col·s_row  and its second  (−r_col)·s_row + s_col·r_row,  where a "column"
  array is an argument with a unit LAST axis broadcast along it, (b, p, q) ↦ x[b, p], and a "row" array is the argument
  with a unit MIDDLE axis broadcast along it, (b, p, q) ↦ x[b, q].  Read at an index (b, p, q), every factor is therefore
  an argument at the row place (b, p) or at the column place (b, q): the first result is `re` term by term, at any float
  instance, and the second is `im` on the extended reals, by moving the sign out of the product.
-/
import proofs.«175084_j2860448219733_2_alg».proof.Proof.Gen.ReferenceIdeal.Read
import proofs.«175084_j2860448219733_2_alg».proof.Proof.OuterSpec

noncomputable section

namespace Cert.ReferenceIdeal.Outer

open Cert.ReferenceIdeal Cert.ReferenceIdeal.Read Cert.OuterProduct Idealize.ShloMosaic

variable {F : FTy → Type} [FloatOps F]

/-! ## Where each broadcast factor reads its argument -/

/-- An argument given a unit last axis and broadcast along it is read at the row place (b, p). -/
theorem row_v4 (i : S64x1024x1024.Idx) : idx_main_v0 (idx_main_v4 i) = rowOf i :=
  funext fun a => Fin.ext (by match a with | ⟨0, _⟩ => rfl | ⟨1, _⟩ => rfl)
theorem row_v7 (i : S64x1024x1024.Idx) : idx_main_v2 (idx_main_v7 i) = rowOf i :=
  funext fun a => Fin.ext (by match a with | ⟨0, _⟩ => rfl | ⟨1, _⟩ => rfl)
theorem row_v12 (i : S64x1024x1024.Idx) : idx_main_v0 (idx_main_v12 i) = rowOf i :=
  funext fun a => Fin.ext (by match a with | ⟨0, _⟩ => rfl | ⟨1, _⟩ => rfl)
theorem row_v15 (i : S64x1024x1024.Idx) : idx_main_v2 (idx_main_v15 i) = rowOf i :=
  funext fun a => Fin.ext (by match a with | ⟨0, _⟩ => rfl | ⟨1, _⟩ => rfl)

/-- An argument given a unit middle axis and broadcast along it is read at the column place (b, q). -/
theorem col_v5 (i : S64x1024x1024.Idx) : idx_main_v1 (idx_main_v5 i) = colOf i :=
  funext fun a => Fin.ext (by match a with | ⟨0, _⟩ => rfl | ⟨1, _⟩ => rfl)
theorem col_v8 (i : S64x1024x1024.Idx) : idx_main_v3 (idx_main_v8 i) = colOf i :=
  funext fun a => Fin.ext (by match a with | ⟨0, _⟩ => rfl | ⟨1, _⟩ => rfl)
theorem col_v13 (i : S64x1024x1024.Idx) : idx_main_v3 (idx_main_v13 i) = colOf i :=
  funext fun a => Fin.ext (by match a with | ⟨0, _⟩ => rfl | ⟨1, _⟩ => rfl)
theorem col_v16 (i : S64x1024x1024.Idx) : idx_main_v1 (idx_main_v16 i) = colOf i :=
  funext fun a => Fin.ext (by match a with | ⟨0, _⟩ => rfl | ⟨1, _⟩ => rfl)

/-! ## The two results -/

/-- The first result is the real part, r_p·r_q + s_p·s_q, term by term (no law of arithmetic is used). -/
theorem first_eq_re (x0 x1 : (⟨S64x1024, .f32⟩ : BufTy).Contents (Elt F)) :
    val_main_v10 (F := F) x0 x1 = re x0 x1 := by
  funext i
  rw [val_main_v10_apply, val_main_v6_apply, val_main_v9_apply, val_main_v4_apply, val_main_v5_apply,
    val_main_v7_apply, val_main_v8_apply, val_main_v0_apply, val_main_v1_apply, val_main_v2_apply, val_main_v3_apply,
    row_v4, col_v5, row_v7, col_v8]
  rfl

/-- The second result is the imaginary part on the extended reals: (−r_p)·s_q + s_p·r_q = s_p·r_q − r_p·s_q. -/
theorem second_eq_im (x0 x1 : (⟨S64x1024, .f32⟩ : BufTy).Contents (Elt Ideal)) :
    val_main_v18 (F := Ideal) x0 x1 = im (F := Ideal) x0 x1 := by
  funext i
  rw [val_main_v18_apply, val_main_v14_apply, val_main_v17_apply, val_main_v12_apply, val_main_v11_apply,
    val_main_v13_apply, val_main_v15_apply, val_main_v16_apply, val_main_v0_apply, val_main_v3_apply,
    val_main_v2_apply, val_main_v1_apply, row_v12, col_v13, row_v15, col_v16]
  exact im_of_neg x0 x1 i

end Cert.ReferenceIdeal.Outer

end
-- ==== Proof.lean ====
/-
  A batched complex outer product, split into real and imaginary parts, against its plain array form.

  The arguments are the real parts `r` and the imaginary parts `s` of 64 complex vectors of length 1024.  Both programs
  return two [64, 1024, 1024] arrays: at (b, p, q)
      the real part       r[b,p]·r[b,q] + s[b,p]·s[b,q]
      the imaginary part  s[b,p]·r[b,q] − r[b,p]·s[b,q]
  of ψ ψ^H for ψ = r[b] + i·s[b] (Proof/OuterSpec.lean: `re`, `im`).

  The kernel works batch by batch: grid point `t` loads row `t` of each argument, forms the 1024 × 1024 products of the
  row with itself as a column, and writes slab `t` of each result; the 64 slabs fill the arrays (Proof/KernelRows.lean,
  KernelReal.lean, KernelImag.lean, KernelOuter.lean).  The reference broadcasts each argument once along a new last axis
  and once along a new middle axis and multiplies whole arrays; its first result is the real part term by term, and its
  second is written  (−r[b,p])·s[b,q] + s[b,p]·r[b,q]  (Proof/RefOuter.lean).

  The one law that joins the two sides is  (−c)·d + a = a − c·d  on the extended reals: a sign leaves a product whatever
  the factors are, and addition commutes.  It needs no finiteness, so the precondition is never opened.  Nothing was
  rewritten between the kernel and its idealization, and the three frames are the generated runs.
-/
import proofs.«175084_j2860448219733_2_alg».proof.Defs
import proofs.«175084_j2860448219733_2_alg».proof.Proof.Gen.Kernel
import proofs.«175084_j2860448219733_2_alg».proof.Proof.Gen.Kernel.Skeleton
import proofs.«175084_j2860448219733_2_alg».proof.Proof.Gen.Kernel.Launch
import proofs.«175084_j2860448219733_2_alg».proof.Proof.Gen.Kernel.Points
import proofs.«175084_j2860448219733_2_alg».proof.Proof.Gen.Kernel.Frame
import proofs.«175084_j2860448219733_2_alg».proof.Proof.Gen.KernelIdeal
import proofs.«175084_j2860448219733_2_alg».proof.Proof.Gen.KernelIdeal.Skeleton
import proofs.«175084_j2860448219733_2_alg».proof.Proof.Gen.KernelIdeal.Launch
import proofs.«175084_j2860448219733_2_alg».proof.Proof.Gen.KernelIdeal.Points
import proofs.«175084_j2860448219733_2_alg».proof.Proof.Gen.KernelIdeal.Frame
import proofs.«175084_j2860448219733_2_alg».proof.Proof.Gen.KernelIdeal.Value
import proofs.«175084_j2860448219733_2_alg».proof.Proof.Gen.ReferenceIdeal
import proofs.«175084_j2860448219733_2_alg».proof.Proof.Gen.ReferenceIdeal.Run
import proofs.«175084_j2860448219733_2_alg».proof.Proof.Gen.ReferenceIdeal.Read
import proofs.«175084_j2860448219733_2_alg».proof.Proof.Gen.Pre_finite_inputs
import proofs.«175084_j2860448219733_2_alg».proof.Proof.KernelOuter
import proofs.«175084_j2860448219733_2_alg».proof.Proof.RefOuter
import Idealize.ShloMosaic.Adequacy
import Idealize.ShloMosaic.Init

noncomputable section

namespace Cert.Proof

open Idealize.ShloMosaic Idealize.SL.Sem Cert.OuterProduct

/-- The kernel as printed runs and leaves its arguments unchanged. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference's run with its two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- Nothing was rewritten between the kernel and its idealization. -/
theorem preserves : Cert.preserves_Kernel_KernelIdeal := trivial

/-- Over the extended reals both programs end with the real part and the imaginary part of the arguments' outer product:
    the kernel slab by slab, the reference by whole-array broadcasts; the imaginary parts meet by (−c)·d + a = a − c·d. -/
theorem algebraic : Cert.algebraic_KernelIdeal_ReferenceIdeal := by
  intro m ρ m' ρ' _ hagree
  refine ⟨fun c => re (m ((c.tc : Thread Cert.KernelIdeal.nD Cert.KernelIdeal.τ).loc Cert.KernelIdeal.main_arg0))
        (m ((c.tc : Thread Cert.KernelIdeal.nD Cert.KernelIdeal.τ).loc Cert.KernelIdeal.main_arg1)),
      fun c => im (m ((c.tc : Thread Cert.KernelIdeal.nD Cert.KernelIdeal.τ).loc Cert.KernelIdeal.main_arg0))
        (m ((c.tc : Thread Cert.KernelIdeal.nD Cert.KernelIdeal.τ).loc Cert.KernelIdeal.main_arg1)),
      Cert.KernelIdeal.Outer.run (F := Ideal) m ρ, ?_⟩
  refine (θ_run Cert.ReferenceIdeal.defs _ _).mono (fun _ h c => ?_) (Cert.ReferenceIdeal.Value.run (F := Ideal) m' ρ')
  obtain ⟨h10, h18, ha0, ha1⟩ := h c
  refine ⟨?_, ?_, ha0, ha1⟩
  · rw [h10, Cert.ReferenceIdeal.Read.val_main_v10_eq, Cert.ReferenceIdeal.Outer.first_eq_re, (hagree c).1, (hagree c).2]
  · rw [h18, Cert.ReferenceIdeal.Read.val_main_v18_eq, Cert.ReferenceIdeal.Outer.second_eq_im, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
